-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024x2 : Shape := ⟨3, ![8192, 1024, 2]⟩
abbrev S2x65536x1x8 : Shape := ⟨4, ![2, 65536, 1, 8]⟩
abbrev S8192x1024x1x1 : Shape := ⟨4, ![8192, 1024, 1, 1]⟩
abbrev S_ : Shape := ⟨0, ![]⟩

class Facts : Prop where
  bcast_S_S2x65536x1x8 : S_.BroadcastsInDim S2x65536x1x8 (![] : Fin 0 → Fin S2x65536x1x8.rank)
  reducesTo_S2x65536x1x8_S_d0_1_2_3 : S2x65536x1x8.ReducesTo [0, 1, 2, 3] S_
  h_S_ : 0 < S_.numel
  bcast_S_S8192x1024x1x1 : S_.BroadcastsInDim S8192x1024x1x1 (![] : Fin 0 → Fin S8192x1024x1x1.rank)
  reducesTo_S8192x1024x1x1_S_d0_1_2_3 : S8192x1024x1x1.ReducesTo [0, 1, 2, 3] S_

variable [Facts]

def fn {F : FTy → Type} [FloatOps F] (main_arg0 : IVec S8192x1024x2 32) (main_arg1 : FVec F S2x65536x1x8 .f32) (main_arg2 : FVec F S8192x1024x1x1 .f32) (main_arg3 : FVec F S8192x1024x1x1 .f32) : IVec S_ 1 :=
  let main_v0 : FVec F S2x65536x1x8 .f32 := Host.absf main_arg1
  let main_cst : FVec F S_ .f32 := constant S_ .f32 0x7F800000#32
  let main_v1 : FVec F S2x65536x1x8 .f32 := broadcastInDim S2x65536x1x8 ![] bcast_S_S2x65536x1x8 main_cst
  let main_v2 : IVec S2x65536x1x8 1 := cmpf .olt main_v0 main_v1
  let main_c : IVec S_ 1 := constantI S_ 1 1#1
  let main_v3 : IVec S_ 1 := (fun x v => Host.reduce IntOp.andi x v reducesTo_S2x65536x1x8_S_d0_1_2_3 h_S_) main_v2 main_c
  let main_v4 : FVec F S8192x1024x1x1 .f32 := Host.absf main_arg2
  let main_cst_0 : FVec F S_ .f32 := constant S_ .f32 0x7F800000#32
  let main_v5 : FVec F S8192x1024x1x1 .f32 := broadcastInDim S8192x1024x1x1 ![] bcast_S_S8192x1024x1x1 main_cst_0
  let main_v6 : IVec S8192x1024x1x1 1 := cmpf .olt main_v4 main_v5
  let main_c_1 : IVec S_ 1 := constantI S_ 1 1#1
  let main_v7 : IVec S_ 1 := (fun x v => Host.reduce IntOp.andi x v reducesTo_S8192x1024x1x1_S_d0_1_2_3 h_S_) main_v6 main_c_1
  let main_v8 : IVec S_ 1 := andi main_v3 main_v7
  let main_v9 : FVec F S8192x1024x1x1 .f32 := Host.absf main_arg3
  let main_cst_2 : FVec F S_ .f32 := constant S_ .f32 0x7F800000#32
  let main_v10 : FVec F S8192x1024x1x1 .f32 := broadcastInDim S8192x1024x1x1 ![] bcast_S_S8192x1024x1x1 main_cst_2
  let main_v11 : IVec S8192x1024x1x1 1 := cmpf .olt main_v9 main_v10
  let main_c_3 : IVec S_ 1 := constantI S_ 1 1#1
  let main_v12 : IVec S_ 1 := (fun x v => Host.reduce IntOp.andi x v reducesTo_S8192x1024x1x1_S_d0_1_2_3 h_S_) main_v11 main_c_3
  let main_v13 : IVec S_ 1 := andi main_v8 main_v12
  main_v13
-- ==== Kernel.lean ====
abbrev S8192x1024x2 : Shape := ⟨3, ![8192, 1024, 2]⟩
abbrev S2x65536x1x8 : Shape := ⟨4, ![2, 65536, 1, 8]⟩
abbrev S8192x1024x1x1 : Shape := ⟨4, ![8192, 1024, 1, 1]⟩
abbrev S2 : Shape := ⟨1, ![2]⟩
abbrev S1x1x2 : Shape := ⟨3, ![1, 1, 2]⟩
abbrev S_ : Shape := ⟨0, ![]⟩
abbrev S8192x1024x2x1 : Shape := ⟨4, ![8192, 1024, 2, 1]⟩
abbrev S8192x1024x2x2 : Shape := ⟨4, ![8192, 1024, 2, 2]⟩
abbrev S8192x1024x2x1x8 : Shape := ⟨5, ![8192, 1024, 2, 1, 8]⟩
abbrev S8192x1024x1x8 : Shape := ⟨4, ![8192, 1024, 1, 8]⟩
abbrev S8192x8192 : Shape := ⟨2, ![8192, 8192]⟩
abbrev S8192x1024 : Shape := ⟨2, ![8192, 1024]⟩
abbrev S256x2048 : Shape := ⟨2, ![256, 2048]⟩
abbrev S256x256 : Shape := ⟨2, ![256, 256]⟩
abbrev S256x256x8 : Shape := ⟨3, ![256, 256, 8]⟩
abbrev S256x256x1 : Shape := ⟨3, ![256, 256, 1]⟩

abbrev nBuf : Space → Nat
  | .hbm => 31
  | .vmem => 8
  | .smem => 0
  | _ => 0

abbrev bufTy : (tb : Table) → Fin (tcTables nBuf tb) → BufTy
  | .hbm, ⟨0, _⟩ => ⟨S8192x1024x2, .i32⟩
  | .hbm, ⟨1, _⟩ => ⟨S2x65536x1x8, .f32⟩
  | .hbm, ⟨2, _⟩ => ⟨S8192x1024x1x1, .f32⟩
  | .hbm, ⟨3, _⟩ => ⟨S8192x1024x1x1, .f32⟩
  | .hbm, ⟨4, _⟩ => ⟨S2, .i32⟩
  | .hbm, ⟨5, _⟩ => ⟨S1x1x2, .i32⟩
  | .hbm, ⟨6, _⟩ => ⟨S_, .i32⟩
  | .hbm, ⟨7, _⟩ => ⟨S1x1x2, .i32⟩
  | .hbm, ⟨8, _⟩ => ⟨S1x1x2, .i1⟩
  | .hbm, ⟨9, _⟩ => ⟨S_, .i32⟩
  | .hbm, ⟨10, _⟩ => ⟨S1x1x2, .i32⟩
  | .hbm, ⟨11, _⟩ => ⟨S1x1x2, .i32⟩
  | .hbm, ⟨12, _⟩ => ⟨S1x1x2, .i32⟩
  | .hbm, ⟨13, _⟩ => ⟨S_, .i32⟩
  | .hbm, ⟨14, _⟩ => ⟨S8192x1024x2, .i32⟩
  | .hbm, ⟨15, _⟩ => ⟨S8192x1024x2, .i1⟩
  | .hbm, ⟨16, _⟩ => ⟨S_, .i32⟩
  | .hbm, ⟨17, _⟩ => ⟨S8192x1024x2, .i32⟩
  | .hbm, ⟨18, _⟩ => ⟨S8192x1024x2, .i32⟩
  | .hbm, ⟨19, _⟩ => ⟨S8192x1024x2, .i32⟩
  | .hbm, ⟨20, _⟩ => ⟨S8192x1024x2, .i32⟩
  | .hbm, ⟨21, _⟩ => ⟨S8192x1024x2x1, .i32⟩
  | .hbm, ⟨22, _⟩ => ⟨S8192x1024x2x1, .i32⟩
  | .hbm, ⟨23, _⟩ => ⟨S8192x1024x2x2, .i32⟩
  | .hbm, ⟨24, _⟩ => ⟨S8192x1024x2x1x8, .f32⟩
  | .hbm, ⟨25, _⟩ => ⟨S_, .f32⟩
  | .hbm, ⟨26, _⟩ => ⟨S8192x1024x1x8, .f32⟩
  | .hbm, ⟨27, _⟩ => ⟨S8192x8192, .f32⟩
  | .hbm, ⟨28, _⟩ => ⟨S8192x1024, .f32⟩
  | .hbm, ⟨29, _⟩ => ⟨S8192x1024, .f32⟩
  | .hbm, ⟨30, _⟩ => ⟨S8192x8192, .f32⟩
  | .local _ .vmem, ⟨0, _⟩ => ⟨S256x2048, .f32⟩
  | .local _ .vmem, ⟨1, _⟩ => ⟨S256x2048, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x2048, .f32⟩
  | .local _ .vmem, ⟨7, _⟩ => ⟨S256x2048, .f32⟩
  | _, _ => ⟨S8192x1024x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S2_S1x1x2_2 : S2.BroadcastsInDim S1x1x2 (![2] : Fin 1 → Fin S1x1x2.rank)
  bcast_S_S1x1x2 : S_.BroadcastsInDim S1x1x2 (![] : Fin 0 → Fin S1x1x2.rank)
  bcast_S_S8192x1024x2 : S_.BroadcastsInDim S8192x1024x2 (![] : Fin 0 → Fin S8192x1024x2.rank)
  bcast_S1x1x2_S8192x1024x2_0_1_2 : S1x1x2.BroadcastsInDim S8192x1024x2 (![0, 1, 2] : Fin 3 → Fin S8192x1024x2.rank)
  bcast_S8192x1024x2_S8192x1024x2x1_0_1_2 : S8192x1024x2.BroadcastsInDim S8192x1024x2x1 (![0, 1, 2] : Fin 3 → Fin S8192x1024x2x1.rank)
  concatenates_S8192x1024x2x1_S8192x1024x2x1_S8192x1024x2x2_d3 : Shape.Concatenates [S8192x1024x2x1, S8192x1024x2x1] S8192x1024x2x2 3
  reducesTo_S8192x1024x2x1x8_S8192x1024x1x8_d2 : S8192x1024x2x1x8.ReducesTo [2] S8192x1024x1x8
  h_S_ : 0 < S_.numel
  shapeCasts_S8192x1024x1x8_S8192x8192 : S8192x1024x1x8.ShapeCasts S8192x8192
  shapeCasts_S8192x1024x1x1_S8192x1024 : S8192x1024x1x1.ShapeCasts S8192x1024
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  shapeCasts_S256x2048_S256x256x8 : S256x2048.ShapeCasts S256x256x8
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256x256_S256x256x1 : S256x256.ShapeCasts S256x256x1
  shapeCasts_S256x256x1_S256x256x1 : S256x256x1.ShapeCasts S256x256x1
  broadcasts_S256x256x1_S256x256x8 : S256x256x1.Broadcasts S256x256x8
  shapeCasts_S256x256x8_S256x2048 : S256x256x8.ShapeCasts S256x2048
  gather_S2x65536x1x8_S8192x1024x2x2_S8192x1024x2x1x8_34_01_n_n_01_3_1118_wf : GatherDims.WF S2x65536x1x8 S8192x1024x2x2 S8192x1024x2x1x8 [3, 4] [0, 1] [] [0, 1] [] 3 ![1, 1, 1, 8]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x8192.size a
  hwx0_0 : ∀ i : grid0.Coords, EltTy.bits .f32 = 32 ∨ (Rect.block (s := S8192x8192) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S8192x1024.size a
  hwx0_1 : ∀ i : grid0.Coords, EltTy.bits .f32 = 32 ∨ (Rect.block (s := S8192x1024) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S8192x1024.size a
  hwx0_2 : ∀ i : grid0.Coords, EltTy.bits .f32 = 32 ∨ (Rect.block (s := S8192x1024) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S8192x8192.size a
  hwx0_3 : ∀ i : grid0.Coords, EltTy.bits .f32 = 32 ∨ (Rect.block (s := S8192x8192) S256x2048.size (cc0_transform_3 i) (hinb0_3 i)).WholeWords (EltTy.packing .f32)

variable [Facts₀]

def gather_S2x65536x1x8_S8192x1024x2x2_S8192x1024x2x1x8_34_01_n_n_01_3_1118 : GatherDims S2x65536x1x8 S8192x1024x2x2 S8192x1024x2x1x8 where
  offsetDims := [3, 4]
  collapsedSliceDims := [0, 1]
  operandBatchingDims := []
  startIndicesBatchingDims := []
  startIndexMap := [0, 1]
  indexVectorDim := 3
  sliceSizes := ![1, 1, 1, 8]
  wf := gather_S2x65536x1x8_S8192x1024x2x2_S8192x1024x2x1x8_34_01_n_n_01_3_1118_wf

abbrev win0_0 : Pipeline.Window sig grid0 :=
  Pipeline.Window.ofSpec (Memref.whole main_v18) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024x2 : Shape := ⟨3, ![8192, 1024, 2]⟩
abbrev S2x65536x1x8 : Shape := ⟨4, ![2, 65536, 1, 8]⟩
abbrev S8192x1024x1x1 : Shape := ⟨4, ![8192, 1024, 1, 1]⟩
abbrev S2 : Shape := ⟨1, ![2]⟩
abbrev S1x1x2 : Shape := ⟨3, ![1, 1, 2]⟩
abbrev S_ : Shape := ⟨0, ![]⟩
abbrev S8192x1024x2x1 : Shape := ⟨4, ![8192, 1024, 2, 1]⟩
abbrev S8192x1024x2x2 : Shape := ⟨4, ![8192, 1024, 2, 2]⟩
abbrev S8192x1024x2x1x8 : Shape := ⟨5, ![8192, 1024, 2, 1, 8]⟩
abbrev S8192x1024x1x8 : Shape := ⟨4, ![8192, 1024, 1, 8]⟩
abbrev S8192x1x1024x8 : Shape := ⟨4, ![8192, 1, 1024, 8]⟩
abbrev S8192x8192 : Shape := ⟨2, ![8192, 8192]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024x2, .i32⟩
  | .hbm, ⟨1, _⟩ => ⟨S2x65536x1x8, .f32⟩
  | .hbm, ⟨2, _⟩ => ⟨S8192x1024x1x1, .f32⟩
  | .hbm, ⟨3, _⟩ => ⟨S8192x1024x1x1, .f32⟩
  | .hbm, ⟨4, _⟩ => ⟨S2, .i32⟩
  | .hbm, ⟨5, _⟩ => ⟨S1x1x2, .i32⟩
  | .hbm, ⟨6, _⟩ => ⟨S_, .i32⟩
  | .hbm, ⟨7, _⟩ => ⟨S1x1x2, .i32⟩
  | .hbm, ⟨8, _⟩ => ⟨S1x1x2, .i1⟩
  | .hbm, ⟨9, _⟩ => ⟨S_, .i32⟩
  | .hbm, ⟨10, _⟩ => ⟨S1x1x2, .i32⟩
  | .hbm, ⟨11, _⟩ => ⟨S1x1x2, .i32⟩
  | .hbm, ⟨12, _⟩ => ⟨S1x1x2, .i32⟩
  | .hbm, ⟨13, _⟩ => ⟨S_, .i32⟩
  | .hbm, ⟨14, _⟩ => ⟨S8192x1024x2, .i32⟩
  | .hbm, ⟨15, _⟩ => ⟨S8192x1024x2, .i1⟩
  | .hbm, ⟨16, _⟩ => ⟨S_, .i32⟩
  | .hbm, ⟨17, _⟩ => ⟨S8192x1024x2, .i32⟩
  | .hbm, ⟨18, _⟩ => ⟨S8192x1024x2, .i32⟩
  | .hbm, ⟨19, _⟩ => ⟨S8192x1024x2, .i32⟩
  | .hbm, ⟨20, _⟩ => ⟨S8192x1024x2, .i32⟩
  | .hbm, ⟨21, _⟩ => ⟨S8192x1024x2x1, .i32⟩
  | .hbm, ⟨22, _⟩ => ⟨S8192x1024x2x1, .i32⟩
  | .hbm, ⟨23, _⟩ => ⟨S8192x1024x2x2, .i32⟩
  | .hbm, ⟨24, _⟩ => ⟨S8192x1024x2x1x8, .f32⟩
  | .hbm, ⟨25, _⟩ => ⟨S_, .f32⟩
  | .hbm, ⟨26, _⟩ => ⟨S8192x1024x1x8, .f32⟩
  | .hbm, ⟨27, _⟩ => ⟨S8192x1024x1x8, .f32⟩
  | .hbm, ⟨28, _⟩ => ⟨S8192x1024x1x8, .f32⟩
  | .hbm, ⟨29, _⟩ => ⟨S8192x1024x1x8, .f32⟩
  | .hbm, ⟨30, _⟩ => ⟨S8192x1024x1x8, .f32⟩
  | .hbm, ⟨31, _⟩ => ⟨S8192x1x1024x8, .f32⟩
  | .hbm, ⟨32, _⟩ => ⟨S8192x8192, .f32⟩
  | _, _ => ⟨S8192x1024x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S2_S1x1x2_2 : S2.BroadcastsInDim S1x1x2 (![2] : Fin 1 → Fin S1x1x2.rank)
  bcast_S_S1x1x2 : S_.BroadcastsInDim S1x1x2 (![] : Fin 0 → Fin S1x1x2.rank)
  bcast_S_S8192x1024x2 : S_.BroadcastsInDim S8192x1024x2 (![] : Fin 0 → Fin S8192x1024x2.rank)
  bcast_S1x1x2_S8192x1024x2_0_1_2 : S1x1x2.BroadcastsInDim S8192x1024x2 (![0, 1, 2] : Fin 3 → Fin S8192x1024x2.rank)
  bcast_S8192x1024x2_S8192x1024x2x1_0_1_2 : S8192x1024x2.BroadcastsInDim S8192x1024x2x1 (![0, 1, 2] : Fin 3 → Fin S8192x1024x2x1.rank)
  concatenates_S8192x1024x2x1_S8192x1024x2x1_S8192x1024x2x2_d3 : Shape.Concatenates [S8192x1024x2x1, S8192x1024x2x1] S8192x1024x2x2 3
  reducesTo_S8192x1024x2x1x8_S8192x1024x1x8_d2 : S8192x1024x2x1x8.ReducesTo [2] S8192x1024x1x8
  h_S_ : 0 < S_.numel
  bcast_S8192x1024x1x1_S8192x1024x1x8_0_1_2_3 : S8192x1024x1x1.BroadcastsInDim S8192x1024x1x8 (![0, 1, 2, 3] : Fin 4 → Fin S8192x1024x1x8.rank)
  transposes_S8192x1024x1x8_S8192x1x1024x8_0_2_1_3 : S8192x1024x1x8.Transposes [0, 2, 1, 3] S8192x1x1024x8
  shapeCasts_S8192x1x1024x8_S8192x8192 : S8192x1x1024x8.ShapeCasts S8192x8192
  gather_S2x65536x1x8_S8192x1024x2x2_S8192x1024x2x1x8_34_01_n_n_01_3_1118_wf : GatherDims.WF S2x65536x1x8 S8192x1024x2x2 S8192x1024x2x1x8 [3, 4] [0, 1] [] [0, 1] [] 3 ![1, 1, 1, 8]

variable [Facts₀]

def gather_S2x65536x1x8_S8192x1024x2x2_S8192x1024x2x1x8_34_01_n_n_01_3_1118 : GatherDims S2x65536x1x8 S8192x1024x2x2 S8192x1024x2x1x8 where
  offsetDims := [3, 4]
  collapsedSliceDims := [0, 1]
  operandBatchingDims := []
  startIndicesBatchingDims := []
  startIndexMap := [0, 1]
  indexVectorDim := 3
  sliceSizes := ![1, 1, 1, 8]
  wf := gather_S2x65536x1x8_S8192x1024x2x2_S8192x1024x2x1x8_34_01_n_n_01_3_1118_wf

class Facts : Prop extends Facts₀ where

variable [Facts]
-- ==== Proof.Dequant.lean ====
/-
  The dequantized weight matrix as ONE function of its ingredients, and the two layouts in which it is computed.

  Ingredients: a table `W[o, g, 0, e]` (8192 output rows `o`, 1024 input groups `g` per row, 8 entries `e` per group — the
  codebook rows of a group's codes, already added up), a scale `s[o, g, 0, 0]` and a zero point `z[o, g, 0, 0]` per group.
  The result is the 8192 x 8192 matrix
      out[o, c] = W[o, c / 8, 0, c % 8] * s[o, c / 8, 0, 0] + z[o, c / 8, 0, 0]            (`dequant`):
  column `c` of a row belongs to group `c / 8` and is that group's entry `c % 8`.

  Two layouts compute it. The rank-4 one works on `W`, `s`, `z` as they are and flattens (group, entry) into the
  column at the end. The rank-2 one flattens first — `A = W` as an 8192 x 8192 matrix, `s`, `z` as 8192 x 1024
  matrices — and scales entry `(o, c)` of `A` by entry `(o, c / 8)` of the scale matrix (`affine2`); a row-major
  reshape keeps the position `o * 8192 + c = ((o * 1024 + c / 8) * 1 + 0) * 8 + c % 8`, so the two agree
  (`affine2_reshape`). Only products and sums of corresponding entries occur: no law of arithmetic is used, so nothing
  here asks the entries to be finite.

  Last, the rank-2 layout on one 256 x 2048 tile, as a vector unit computes it (`tile_apply`): the tile viewed as
  256 x 256 groups of 8, the 256 x 256 tile of scales given a trailing unit axis and repeated 8 times along it, the
  product and the sum taken entry by entry, the result viewed as 256 x 2048 again. Entry `(p, q)` of the result is
  `x(p, q) * s(p, q / 8) + z(p, q / 8)`.
-/
import Idealize.ShloMosaic.PureOps.Ideal
import Idealize.ShloMosaic.Lib.ValueIdx
import Idealize.ShloMosaic.Lib.Pipeline.Value

noncomputable section

namespace Cert.Dequant

open Idealize.ShloMosaic Idealize.ShloMosaic.ValueIdx

/-- The table of summed codebook rows: [row, group, 1, entry]. -/
abbrev TableS : Shape := ⟨4, ![8192, 1024, 1, 8]⟩
/-- A per-group array: [row, group, 1, 1]. -/
abbrev GroupS : Shape := ⟨4, ![8192, 1024, 1, 1]⟩
/-- The result matrix: [row, column]. -/
abbrev MatS : Shape := ⟨2, ![8192, 8192]⟩
/-- A per-group array as a matrix: [row, group]. -/
abbrev GroupMatS : Shape := ⟨2, ![8192, 1024]⟩

/-- The group a column belongs to. -/
def grp (c : Fin 8192) : Fin 1024 := ⟨c.val / 8, by have := c.isLt; omega⟩
/-- The column's place inside its group. -/
def ent (c : Fin 8192) : Fin 8 := ⟨c.val % 8, Nat.mod_lt _ (by decide)⟩

/-- The dequantized matrix from the rank-4 ingredients. -/
def dequant (W : TableS.Idx → EReal) (s z : GroupS.Idx → EReal) : MatS.Idx → EReal := fun i =>
  W (ix4 (n0 := 8192) (i 0) (grp (i 1)) (0 : Fin 1) (ent (i 1))) * s (ix4 (n0 := 8192) (i 0) (grp (i 1)) (0 : Fin 1) (0 : Fin 1))
    + z (ix4 (n0 := 8192) (i 0) (grp (i 1)) (0 : Fin 1) (0 : Fin 1))

/-- The same from the flattened ingredients: entry `(o, c)` of the matrix scaled and shifted by its group's numbers. -/
def affine2 (A : MatS.Idx → EReal) (s z : GroupMatS.Idx → EReal) : MatS.Idx → EReal := fun i =>
  A i * s (ix2 (n0 := 8192) (i 0) (grp (i 1))) + z (ix2 (n0 := 8192) (i 0) (grp (i 1)))

theorem dequant_apply (W : TableS.Idx → EReal) (s z : GroupS.Idx → EReal) (o c : Fin 8192) :
    dequant W s z (ix2 o c) = W (ix4 o (grp c) (0 : Fin 1) (ent c)) * s (ix4 o (grp c) (0 : Fin 1) (0 : Fin 1)) + z (ix4 o (grp c) (0 : Fin 1) (0 : Fin 1)) := rfl

theorem affine2_apply (A : MatS.Idx → EReal) (s z : GroupMatS.Idx → EReal) (o c : Fin 8192) :
    affine2 A s z (ix2 o c) = A (ix2 o c) * s (ix2 o (grp c)) + z (ix2 o (grp c)) := rfl

/-- Flattening the ingredients first and then scaling is scaling first and then flattening: a row-major reshape moves
    entry `(o, g, 0, e)` to `(o, 8 g + e)` and entry `(o, g, 0, 0)` to `(o, g)`. -/
theorem affine2_reshape (W : TableS.Idx → EReal) (s z : GroupS.Idx → EReal)
    (hW : TableS.ShapeCasts MatS) (hG : GroupS.ShapeCasts GroupMatS) :
    affine2 (shapeCast MatS W hW) (shapeCast GroupMatS s hG) (shapeCast GroupMatS z hG) = dequant W s z := by
  funext i
  obtain ⟨o, c, rfl⟩ : ∃ (o c : Fin 8192), i = ix2 o c := ⟨i 0, i 1, eq_ix2 i⟩
  have hc : c.val < 8192 := c.isLt
  have ho : o.val < 8192 := o.isLt
  rw [affine2_apply, dequant_apply]
  have eW : shapeCast MatS W hW (ix2 o c) = W (ix4 o (grp c) (0 : Fin 1) (ent c)) :=
    shapeCast_apply W hW (ix2 o c) (ix4 o (grp c) (0 : Fin 1) (ent c)) (by
      rw [Shape.rowMajor_val_four, Shape.rowMajor_val_two]
      show ((o.val * 1024 + c.val / 8) * 1 + 0) * 8 + c.val % 8 = o.val * 8192 + c.val
      omega)
  have eG : ∀ y : GroupS.Idx → EReal, shapeCast GroupMatS y hG (ix2 o (grp c)) = y (ix4 o (grp c) (0 : Fin 1) (0 : Fin 1)) := fun y =>
    shapeCast_apply y hG (ix2 o (grp c)) (ix4 o (grp c) (0 : Fin 1) (0 : Fin 1)) (by
      rw [Shape.rowMajor_val_four, Shape.rowMajor_val_two]
      show ((o.val * 1024 + c.val / 8) * 1 + 0) * 1 + 0 = o.val * 1024 + c.val / 8
      omega)
  rw [eW, eG s, eG z]

/-! ## One tile, as the vector unit computes it -/

abbrev TileS : Shape := ⟨2, ![256, 2048]⟩
abbrev TileGroupS : Shape := ⟨2, ![256, 256]⟩
abbrev TileSplitS : Shape := ⟨3, ![256, 256, 8]⟩
abbrev TileUnitS : Shape := ⟨3, ![256, 256, 1]⟩

/-- The group of a column of a tile. -/
def tgrp (q : Fin 2048) : Fin 256 := ⟨q.val / 8, by have := q.isLt; omega⟩
/-- Its place inside the group. -/
def tent (q : Fin 2048) : Fin 8 := ⟨q.val % 8, Nat.mod_lt _ (by decide)⟩

/-- A 256 x 256 tile given a trailing unit axis and repeated 8 times along it reads `(p, g)` at `(p, g, e)`. -/
theorem spread_apply (y : TileGroupS.Idx → EReal) (h4 : TileGroupS.ShapeCasts TileUnitS) (h6 : TileUnitS.Broadcasts TileSplitS)
    (p g : Fin 256) (e : Fin 8) :
    broadcastTo TileSplitS (shapeCast TileUnitS y h4) h6 (ix3 p g e) = y (ix2 p g) := by
  refine (broadcastTo_apply _ h6 (ix3 p g e) (ix3 p g (0 : Fin 1)) (fun a => match a with
    | ⟨0, _⟩ => by show p.val = if (256 : Nat) = 1 then 0 else p.val; rw [if_neg (by decide)]
    | ⟨1, _⟩ => by show g.val = if (256 : Nat) = 1 then 0 else g.val; rw [if_neg (by decide)]
    | ⟨2, _⟩ => by show 0 = if (1 : Nat) = 1 then 0 else e.val; rw [if_pos rfl])).trans ?_
  exact shapeCast_apply y h4 (ix3 p g (0 : Fin 1)) (ix2 p g) (by
    rw [Shape.rowMajor_val_three, Shape.rowMajor_val_two]
    show p.val * 256 + g.val = (p.val * 256 + g.val) * 1 + 0
    omega)

/-- THE TILE: entry `(p, q)` of what the vector unit stores is `x(p, q) * s(p, q / 8) + z(p, q / 8)`. -/
theorem tile_apply (x : TileS.Idx → EReal) (s z : TileGroupS.Idx → EReal)
    (h1 : TileS.ShapeCasts TileS) (h2 : TileS.ShapeCasts TileSplitS) (h3 : TileGroupS.ShapeCasts TileGroupS)
    (h4 : TileGroupS.ShapeCasts TileUnitS) (h5 : TileUnitS.ShapeCasts TileUnitS) (h6 : TileUnitS.Broadcasts TileSplitS)
    (h7 : TileSplitS.ShapeCasts TileS) (p : Fin 256) (q : Fin 2048) :
    shapeCast TileS
        (addf (F := Ideal) (φ := .f32)
          (mulf (F := Ideal) (φ := .f32) (shapeCast TileSplitS (shapeCast TileS x h1) h2)
            (broadcastTo TileSplitS (shapeCast TileUnitS (shapeCast TileUnitS (shapeCast TileGroupS s h3) h4) h5) h6))
          (broadcastTo TileSplitS (shapeCast TileUnitS (shapeCast TileUnitS (shapeCast TileGroupS z h3) h4) h5) h6))
        h7 (ix2 p q)
      = x (ix2 p q) * s (ix2 p (tgrp q)) + z (ix2 p (tgrp q)) := by
  have hq : q.val < 2048 := q.isLt
  rw [shapeCast_self x h1, shapeCast_self s h3, shapeCast_self z h3, shapeCast_self _ h5, shapeCast_self _ h5]
  refine (shapeCast_apply _ h7 (ix2 p q) (ix3 p (tgrp q) (tent q)) (by
    rw [Shape.rowMajor_val_three, Shape.rowMajor_val_two]
    show (p.val * 256 + q.val / 8) * 8 + q.val % 8 = p.val * 2048 + q.val
    omega)).trans ?_
  rw [addf_apply, mulf_apply, spread_apply s h4 h6, spread_apply z h4 h6]
  have ex : shapeCast TileSplitS x h2 (ix3 p (tgrp q) (tent q)) = x (ix2 p q) :=
    shapeCast_apply x h2 (ix3 p (tgrp q) (tent q)) (ix2 p q) (by
      rw [Shape.rowMajor_val_three, Shape.rowMajor_val_two]
      show p.val * 2048 + q.val = (p.val * 256 + q.val / 8) * 8 + q.val % 8
      omega)
  rw [ex]

end Cert.Dequant

end
-- ==== Proof.Tile.lean ====
/-
  What the kernel body stores, entry by entry.

  The body loads a 256 x 2048 tile `x` of the flattened table and the 256 x 256 tiles `s`, `z` of the scales and the
  zero points that go with it, and stores one 256 x 2048 tile. Its arithmetic is the rank-2 layout of the dequantization
  on that tile (`Cert.Dequant.tile_apply`): entry `(p, q)` of what it stores is `x(p, q) * s(p, q / 8) + z(p, q / 8)`
  (`pay_apply`).

  When the three tiles are tile `(b0, b1)` of three whole arrays — rows `256 b0 …`, columns `2048 b1 …` of an
  8192 x 8192 matrix `A`, and rows `256 b0 …`, columns `256 b1 …` of two 8192 x 1024 matrices `S`, `Z` — the stored
  tile is tile `(b0, b1)` of `affine2 A S Z` (`tile_of_arrays`): column `2048 b1 + q` belongs to group
  `(2048 b1 + q) / 8 = 256 b1 + q / 8`, which is column `q / 8` of the scales' tile.
-/
import proofs.«164134_j28406913696351_2_alg».proof.Proof.Gen.KernelIdeal.Skeleton
import proofs.«164134_j28406913696351_2_alg».proof.Proof.Dequant

noncomputable section

namespace Cert.KernelIdeal.Tile

open Cert.KernelIdeal Cert.KernelIdeal.Gen Idealize.ShloMosaic Idealize.ShloMosaic.ValueIdx Cert.Dequant

/-- The stored tile at `(p, q)`: the loaded table entry scaled and shifted by its group's numbers. -/
theorem pay_apply (x : Vec Ideal S256x2048 .f32) (s z : Vec Ideal S256x256 .f32) (p : Fin 256) (q : Fin 2048) :
    k0_pay1 (F := Ideal) x s z (ix2 p q) = x (ix2 p q) * s (ix2 p (tgrp q)) + z (ix2 p (tgrp q)) :=
  tile_apply x s z shapeCasts_S256x2048_S256x2048 shapeCasts_S256x2048_S256x256x8 shapeCasts_S256x256_S256x256
    shapeCasts_S256x256_S256x256x1 shapeCasts_S256x256x1_S256x256x1 broadcasts_S256x256x1_S256x256x8
    shapeCasts_S256x256x8_S256x2048 p q

/-- Tiles of whole arrays in, the tile of the whole result out. The array index of tile entry `(p, q)` is given as `k`
    with its two coordinates' values (`hk0`, `hk1`), so that a caller names it as it meets it. -/
theorem tile_of_arrays (A : MatS.Idx → EReal) (S Z : GroupMatS.Idx → EReal)
    (x : Vec Ideal S256x2048 .f32) (s z : Vec Ideal S256x256 .f32) (b0 b1 : Nat) (hb0 : b0 ≤ 31) (hb1 : b1 ≤ 3)
    (hx : ∀ (p : Fin 256) (q : Fin 2048) (k : MatS.Idx), (k 0).val = b0 * 256 + p.val → (k 1).val = b1 * 2048 + q.val →
      x (ix2 p q) = A k)
    (hs : ∀ (p g : Fin 256) (k : GroupMatS.Idx), (k 0).val = b0 * 256 + p.val → (k 1).val = b1 * 256 + g.val →
      s (ix2 p g) = S k)
    (hz : ∀ (p g : Fin 256) (k : GroupMatS.Idx), (k 0).val = b0 * 256 + p.val → (k 1).val = b1 * 256 + g.val →
      z (ix2 p g) = Z k)
    (p : Fin 256) (q : Fin 2048) (k : MatS.Idx) (hk0 : (k 0).val = b0 * 256 + p.val) (hk1 : (k 1).val = b1 * 2048 + q.val) :
    k0_pay1 (F := Ideal) x s z (ix2 p q) = affine2 A S Z k := by
  have hq : q.val < 2048 := q.isLt
  have hp : p.val < 256 := p.isLt
  obtain ⟨o, c, rfl⟩ : ∃ (o c : Fin 8192), k = ix2 o c := ⟨k 0, k 1, eq_ix2 k⟩
  have ho : o.val = b0 * 256 + p.val := hk0
  have hc : c.val = b1 * 2048 + q.val := hk1
  have hg : (grp c).val = b1 * 256 + (tgrp q).val := by
    show c.val / 8 = b1 * 256 + q.val / 8
    omega
  rw [pay_apply, affine2_apply, hx p q (ix2 o c) ho hc, hs p (tgrp q) (ix2 o (grp c)) ho hg, hz p (tgrp q) (ix2 o (grp c)) ho hg]

end Cert.KernelIdeal.Tile

end
-- ==== Proof.Operands.lean ====
/-
  What the kernel's three input operands hold when its grid starts.

  Before the grid the program gathers each group's two codebook rows and adds them — the same operations, in the same
  order, as the reference's: the table `W` (`table`, kept as one function of the codes and the codebooks and never
  opened) — and flattens: the table to an 8192 x 8192 matrix, the scales and the zero points to 8192 x 1024 matrices.
  Those three flattened arrays are the operands.
-/
import proofs.«164134_j28406913696351_2_alg».proof.Proof.Gen.KernelIdeal.Frame
import Idealize.ShloMosaic.Lib.StableHlo.Run

noncomputable section

namespace Cert.KernelIdeal.Operands

open Cert.KernelIdeal Cert.KernelIdeal.Gen Idealize.ShloMosaic Idealize.ShloMosaic.TcCoe Idealize.SL.Sem Idealize.ShloMosaic.StableHlo

variable {F : FTy → Type} [FloatOps F]

/-- The table of summed codebook rows, [row, group, 1, entry]: for every group the rows its two codes select (a code
    below zero counted from the end of its codebook), added over the codebook axis. -/
def table (x0 : (⟨S8192x1024x2, .i32⟩ : BufTy).Contents (Elt F)) (x1 : (⟨S2x65536x1x8, .f32⟩ : BufTy).Contents (Elt F)) :
    (⟨S8192x1024x1x8, .f32⟩ : BufTy).Contents (Elt F) :=
  Host.reduceAdd (Host.gather gather_S2x65536x1x8_S8192x1024x2x2_S8192x1024x2x1x8_34_01_n_n_01_3_1118 x1 (concatenate S8192x1024x2x2 3 [⟨S8192x1024x2x1, (broadcastInDim S8192x1024x2x1 ![0, 1, 2] bcast_S8192x1024x2_S8192x1024x2x1_0_1_2 (broadcastInDim S8192x1024x2 ![0, 1, 2] bcast_S1x1x2_S8192x1024x2_0_1_2 (select (cmpi .slt (broadcastInDim S1x1x2 ![2] bcast_S2_S1x1x2_2 (iotaInDim S2 32 0)) (broadcastInDim S1x1x2 ![] bcast_S_S1x1x2 (constantI S_ 32 0#32))) (addi (broadcastInDim S1x1x2 ![2] bcast_S2_S1x1x2_2 (iotaInDim S2 32 0)) (broadcastInDim S1x1x2 ![] bcast_S_S1x1x2 (constantI S_ 32 2#32))) (broadcastInDim S1x1x2 ![2] bcast_S2_S1x1x2_2 (iotaInDim S2 32 0)))))⟩, ⟨S8192x1024x2x1, (broadcastInDim S8192x1024x2x1 ![0, 1, 2] bcast_S8192x1024x2_S8192x1024x2x1_0_1_2 (select (cmpi .slt x0 (broadcastInDim S8192x1024x2 ![] bcast_S_S8192x1024x2 (constantI S_ 32 0#32))) (addi x0 (broadcastInDim S8192x1024x2 ![] bcast_S_S8192x1024x2 (constantI S_ 32 65536#32))) x0))⟩] concatenates_S8192x1024x2x1_S8192x1024x2x1_S8192x1024x2x2_d3)) (constant S_ .f32 0x00000000#32) reducesTo_S8192x1024x2x1x8_S8192x1024x1x8_d2 h_S_

variable (m : (ℓ : Loc nD τ sig) → Buf (Elt F) ℓ)

set_option maxHeartbeats 2000000 in
/-- Operand 0 is the table, flattened. -/
theorem operand_table (c : Dev nD) :
    (V m c main_v18 : S8192x8192.Idx → Elt F .f32)
      = shapeCast S8192x8192 (table (m ((c.tc : Thread nD τ).loc main_arg0)) (m ((c.tc : Thread nD τ).loc main_arg1))) shapeCasts_S8192x1024x1x8_S8192x8192 := by
  dsimp only [Gen.V, Gen.hostOps0]
  after_results
  rfl

set_option maxHeartbeats 2000000 in
/-- Operand 1 is the scales, flattened. -/
theorem operand_scales (c : Dev nD) :
    (V m c main_v19 : S8192x1024.Idx → Elt F .f32)
      = shapeCast S8192x1024 (m ((c.tc : Thread nD τ).loc main_arg2)) shapeCasts_S8192x1024x1x1_S8192x1024 := by
  dsimp only [Gen.V, Gen.hostOps0]
  after_results
  rfl

set_option maxHeartbeats 2000000 in
/-- Operand 2 is the zero points, flattened. -/
theorem operand_zeros (c : Dev nD) :
    (V m c main_v20 : S8192x1024.Idx → Elt F .f32)
      = shapeCast S8192x1024 (m ((c.tc : Thread nD τ).loc main_arg3)) shapeCasts_S8192x1024x1x1_S8192x1024 := by
  dsimp only [Gen.V, Gen.hostOps0]
  after_results
  rfl

end Cert.KernelIdeal.Operands

end
-- ==== Proof.Whole.lean ====
/-
  From the tiles the grid writes to the whole result matrix.

  The grid has 32 x 4 points; point `(i, j)` reads tile `(i, j)` of each operand — 256 rows by 2048 columns of the
  flattened table, 256 by 256 of the flattened scales and zero points — and writes tile `(i, j)` of the result. What it
  writes is tile `(i, j)` of ONE matrix, `affine2` of the three operands (`wrote_tile`, by `Tile.tile_of_arrays`); the
  128 tiles cover the 8192 x 8192 result (row `r`, column `c` lies in tile `(r / 256, c / 2048)`: `covered`); so the
  result array ends as that matrix (`result_array`). With the operands as the host operations left them — the table,
  the scales and the zero points, each flattened — it is the dequantized matrix of the table (`result_dequant`, `run`).
-/
import proofs.«164134_j28406913696351_2_alg».proof.Proof.Gen.KernelIdeal.Value
import proofs.«164134_j28406913696351_2_alg».proof.Proof.Tile
import proofs.«164134_j28406913696351_2_alg».proof.Proof.Operands

noncomputable section

namespace Cert.KernelIdeal.Whole

open Cert.KernelIdeal Cert.KernelIdeal.Gen Idealize.ShloMosaic Idealize.ShloMosaic.TcCoe Idealize.SL.Sem
open Idealize.ShloMosaic.ValueIdx Cert.Dequant
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Every operand's tile index at a grid point is the result's, and the result's stays inside 32 x 4 (decided over the
    128 points). -/
theorem same_tile : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_3.index t (0 : Fin 2) ≤ 31 ∧ win0_3.index t (1 : Fin 2) ≤ 3 :=
  (by decide +kernel : ∀ t : Fin grid0.N, _)

/-- Every tile of the result is some grid point's. -/
theorem every_tile : ∀ (q0 : Fin 32) (q1 : Fin 4), ∃ t : Fin cfg0.N, win0_3.index t = ![q0.val, q1.val] :=
  (by decide +kernel : ∀ (q0 : Fin 32) (q1 : Fin 4), ∃ t : Fin grid0.N, win0_3.index t = ![q0.val, q1.val])

/-- The table's tile at a point, entry `(p, q)`: the operand at row `256 i + p`, column `2048 j + q`. -/
theorem table_tile (c : Dev nD) (t : Fin cfg0.N) (p : Fin 256) (q : Fin 2048) (k : S8192x8192.Idx)
    (hk0 : (k 0).val = win0_3.index t (0 : Fin 2) * 256 + p.val) (hk1 : (k 1).val = win0_3.index t (1 : Fin 2) * 2048 + q.val) :
    (iblk m c 0 t : Vec Ideal S256x2048 .f32) (ix2 p q) = (V m c main_v18 : S8192x8192.Idx → Elt Ideal .f32) k := by
  obtain ⟨e00, e01, -⟩ := same_tile t
  show (V m c main_v18 : S8192x8192.Idx → Elt Ideal .f32) (((cfg0.win 0).blk t).view.emb (ix2 p q)) = _
  refine congrArg (V m c main_v18 : S8192x8192.Idx → Elt Ideal .f32) (funext fun a => Fin.ext ?_)
  match a with
  | ⟨0, _⟩ => show win0_0.index t (0 : Fin 2) * 256 + 1 * p.val = (k 0).val; omega
  | ⟨1, _⟩ => show win0_0.index t (1 : Fin 2) * 2048 + 1 * q.val = (k 1).val; omega

/-- The scales' tile at a point, entry `(p, g)`: the operand at row `256 i + p`, column `256 j + g`. -/
theorem scales_tile (c : Dev nD) (t : Fin cfg0.N) (p g : Fin 256) (k : S8192x1024.Idx)
    (hk0 : (k 0).val = win0_3.index t (0 : Fin 2) * 256 + p.val) (hk1 : (k 1).val = win0_3.index t (1 : Fin 2) * 256 + g.val) :
    (iblk m c 1 t : Vec Ideal S256x256 .f32) (ix2 p g) = (V m c main_v19 : S8192x1024.Idx → Elt Ideal .f32) k := by
  obtain ⟨-, -, e10, e11, -⟩ := same_tile t
  show (V m c main_v19 : S8192x1024.Idx → Elt Ideal .f32) (((cfg0.win 1).blk t).view.emb (ix2 p g)) = _
  refine congrArg (V m c main_v19 : S8192x1024.Idx → Elt Ideal .f32) (funext fun a => Fin.ext ?_)
  match a with
  | ⟨0, _⟩ => show win0_1.index t (0 : Fin 2) * 256 + 1 * p.val = (k 0).val; omega
  | ⟨1, _⟩ => show win0_1.index t (1 : Fin 2) * 256 + 1 * g.val = (k 1).val; omega

/-- The zero points' tile at a point, likewise. -/
theorem zeros_tile (c : Dev nD) (t : Fin cfg0.N) (p g : Fin 256) (k : S8192x1024.Idx)
    (hk0 : (k 0).val = win0_3.index t (0 : Fin 2) * 256 + p.val) (hk1 : (k 1).val = win0_3.index t (1 : Fin 2) * 256 + g.val) :
    (iblk m c 2 t : Vec Ideal S256x256 .f32) (ix2 p g) = (V m c main_v20 : S8192x1024.Idx → Elt Ideal .f32) k := by
  obtain ⟨-, -, -, -, e20, e21, -⟩ := same_tile t
  show (V m c main_v20 : S8192x1024.Idx → Elt Ideal .f32) (((cfg0.win 2).blk t).view.emb (ix2 p g)) = _
  refine congrArg (V m c main_v20 : S8192x1024.Idx → Elt Ideal .f32) (funext fun a => Fin.ext ?_)
  match a with
  | ⟨0, _⟩ => show win0_2.index t (0 : Fin 2) * 256 + 1 * p.val = (k 0).val; omega
  | ⟨1, _⟩ => show win0_2.index t (1 : Fin 2) * 256 + 1 * g.val = (k 1).val; omega

/-- The result matrix in terms of the operands as the grid finds them. -/
abbrev resultOf (c : Dev nD) : S8192x8192.Idx → Elt Ideal .f32 :=
  affine2 (V m c main_v18) (V m c main_v19) (V m c main_v20)

/-- WHAT POINT `t` WRITES BACK is tile `t` of the result matrix. -/
theorem wrote_tile (c : Dev nD) (t : Fin cfg0.N) :
    (dats m 0 c).flushed 3 t = ((cfg0.win 3).blk t).view.read (Elt Ideal) (resultOf m c) := by
  rw [Value.flushed3]
  unfold out0_3
  rw [View.canon_unit_zero zero_offsets]
  simp only [View.ld_unit_zero (S := S256x2048) zero_offsets, View.ld_unit_zero (S := S256x256) zero_offsets]
  obtain ⟨-, -, -, -, -, -, b0, b1⟩ := same_tile t
  funext j
  obtain ⟨p, q, rfl⟩ : ∃ (p : Fin 256) (q : Fin 2048), j = ix2 p q := ⟨j 0, j 1, eq_ix2 j⟩
  show k0_pay1 (F := Ideal) (iblk m c 0 t) (iblk m c 1 t) (iblk m c 2 t) (ix2 p q)
    = resultOf m c (((cfg0.win 3).blk t).view.emb (ix2 p q))
  refine Tile.tile_of_arrays _ _ _ _ _ _ (win0_3.index t (0 : Fin 2)) (win0_3.index t (1 : Fin 2)) b0 b1
    (fun p q k h0 h1 => table_tile m c t p q k h0 h1) (fun p g k h0 h1 => scales_tile m c t p g k h0 h1)
    (fun p g k h0 h1 => zeros_tile m c t p g k h0 h1) p q _ ?_ ?_
  · show win0_3.index t (0 : Fin 2) * 256 + 1 * p.val = _; omega
  · show win0_3.index t (1 : Fin 2) * 2048 + 1 * q.val = _; omega

/-- An index of the result is in point `t`'s tile iff each coordinate is in the tile's range on its axis. -/
theorem mem_tile (t : Fin cfg0.N) (i : S8192x8192.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v21).slice (win0_3.rect t)).set ↔ _
  rw [View.set_slice_whole, Rect.mem_set_unit]
  exact Iff.rfl

/-- The tiles cover the result: row `r`, column `c` lies in tile `(r / 256, c / 2048)`. -/
theorem covered (i : S8192x8192.Idx) : ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := every_tile ⟨(i 0).val / 256, by omega⟩ ⟨(i 1).val / 2048, by omega⟩
  have q0 : win0_3.index t (0 : Fin 2) = (i 0).val / 256 := congrFun ht 0
  have q1 : win0_3.index t (1 : Fin 2) = (i 1).val / 2048 := congrFun ht 1
  refine ⟨t, flush0_3 t, ?_⟩
  rw [mem_tile]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 2048 ≤ (i 1).val ∧ (i 1).val < win0_3.index t (1 : Fin 2) * 2048 + 2048; omega

/-- THE RESULT ARRAY after the grid is the result matrix. -/
theorem result_array (c : Dev nD) : (dats m 0 c).arrAt 3 cfg0.N = resultOf m c :=
  (dats m 0 c).arrAt_eq_of_cover 3 (resultOf m c) (fun t _ => wrote_tile m c t) covered

/-- With the operands the host operations left, the result matrix is the dequantized matrix of the table. -/
theorem result_dequant (c : Dev nD) :
    resultOf m c = dequant (Operands.table (m ((c.tc : Thread nD τ).loc main_arg0)) (m ((c.tc : Thread nD τ).loc main_arg1)))
      (m ((c.tc : Thread nD τ).loc main_arg2)) (m ((c.tc : Thread nD τ).loc main_arg3)) := by
  unfold resultOf
  rw [Operands.operand_table, Operands.operand_scales, Operands.operand_zeros]
  exact affine2_reshape _ _ _ _ _

/-- The kernel program's run, read: the result array at the dequantized matrix of the table, the arguments unchanged. -/
theorem run : θ_run defs (onTc (τ := τ) (main (F := Ideal))) ⟨m, fun _ => 0, ρ⟩ fun r => ∀ c : Dev nD,
      r.2.mem ((c : Thread nD τ).loc main_v21) = dequant (Operands.table (m ((c.tc : Thread nD τ).loc main_arg0)) (m ((c.tc : Thread nD τ).loc main_arg1)))
        (m ((c.tc : Thread nD τ).loc main_arg2)) (m ((c.tc : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((result_array m c).trans (result_dequant m c)), (h c).2⟩)
    (Value.run_blocks m ρ)

end Cert.KernelIdeal.Whole

end
-- ==== Proof.RefForm.lean ====
/-
  The reference program's result is the dequantized matrix of the table it gathers.

  The reference gathers each group's two codebook rows and adds them (its operations up to the sum over the codebook
  axis: the table `W`, kept here as ONE unopened function of the codes and the codebooks), multiplies by the scales
  and adds the zero points entry by entry on [8192, 1024, 1, 8] arrays — the per-group numbers repeated along the
  entry axis —, swaps the two middle axes and flattens to 8192 x 8192. Read at `(o, c)`: the flattening puts
  `(o, 0, c / 8, c % 8)` there (position `o * 8192 + c` in row-major order), the swap reads `(o, c / 8, 0, c % 8)`,
  and the repeated scale and zero point are those of `(o, c / 8, 0, 0)`. That is `Cert.Dequant.dequant`.
-/
import proofs.«164134_j28406913696351_2_alg».proof.Proof.Gen.ReferenceIdeal.Read
import proofs.«164134_j28406913696351_2_alg».proof.Proof.Dequant

noncomputable section

namespace Cert.ReferenceIdeal.RefValue

open Cert.ReferenceIdeal Cert.ReferenceIdeal.Read Idealize.ShloMosaic Idealize.ShloMosaic.ValueIdx Cert.Dequant

/-- The reference's last stage, index by index, is the dequantized matrix of its gathered-and-summed table. -/
theorem result_eq (x0 : (⟨S8192x1024x2, .i32⟩ : BufTy).Contents (Elt Ideal)) (x1 : (⟨S2x65536x1x8, .f32⟩ : BufTy).Contents (Elt Ideal))
    (x2 x3 : (⟨S8192x1024x1x1, .f32⟩ : BufTy).Contents (Elt Ideal)) :
    val_main_v23 (F := Ideal) x0 x1 x2 x3 = dequant (val_main_v17 (F := Ideal) x0 x1) x2 x3 := by
  funext i
  obtain ⟨o, c, rfl⟩ : ∃ (o c : Fin 8192), i = ix2 o c := ⟨i 0, i 1, eq_ix2 i⟩
  have ho : o.val < 8192 := o.isLt
  have hc : c.val < 8192 := c.isLt
  -- the flattening then the swap of the middle axes read the table's layout at (o, c / 8, 0, c % 8)
  have e1 : idx_main_v22 (idx_main_v23 (ix2 o c)) = ix4 o (grp c) (0 : Fin 1) (ent c) := funext fun a => Fin.ext (by
    match a with
    | ⟨0, _⟩ => show (o.val * 8192 + c.val) / 8192 = o.val; omega
    | ⟨1, _⟩ => show (o.val * 8192 + c.val) / 8 % 1024 = c.val / 8; omega
    | ⟨2, _⟩ => rfl
    | ⟨3, _⟩ => show (o.val * 8192 + c.val) % 8 = c.val % 8; omega)
  -- a per-group number repeated along the entry axis is read at entry 0
  have e2 : idx_main_v18 (ix4 o (grp c) (0 : Fin 1) (ent c)) = ix4 o (grp c) (0 : Fin 1) (0 : Fin 1) := funext fun a => Fin.ext (by
    match a with
    | ⟨0, _⟩ => rfl
    | ⟨1, _⟩ => rfl
    | ⟨2, _⟩ => rfl
    | ⟨3, _⟩ => rfl)
  have e3 : idx_main_v20 (ix4 o (grp c) (0 : Fin 1) (ent c)) = ix4 o (grp c) (0 : Fin 1) (0 : Fin 1) := funext fun a => Fin.ext (by
    match a with
    | ⟨0, _⟩ => rfl
    | ⟨1, _⟩ => rfl
    | ⟨2, _⟩ => rfl
    | ⟨3, _⟩ => rfl)
  rw [val_main_v23_apply, val_main_v22_apply, e1, val_main_v21_apply, val_main_v19_apply, val_main_v18_apply,
    val_main_v20_apply, e2, e3, dequant_apply]
  rfl

end Cert.ReferenceIdeal.RefValue

end
-- ==== Proof.lean ====
/-
  Dequantization of a vector-quantized weight matrix: the kernel program against its reference, on the extended reals.

  Both programs first build the same table `W[o, g, 0, e]`: for each of 8192 x 1024 groups the two codebook rows its
  two codes select (8 entries each), added. Both then compute, for every group, `W * scale + zero` entry by entry and
  lay the result out as an 8192 x 8192 matrix whose column `c` is entry `c % 8` of group `c / 8`:
      out[o, c] = W[o, c / 8, 0, c % 8] * scales[o, c / 8, 0, 0] + zeros[o, c / 8, 0, 0]        (`Cert.Dequant.dequant`).
  The reference does the arithmetic on the rank-4 arrays and flattens last (Proof/RefForm.lean). The kernel program
  flattens first and lets a 32 x 4 grid of tiles do the arithmetic, each tile scaling 256 x 2048 table entries by the
  256 x 256 scales of their groups (Proof/Tile.lean: one tile; Proof/Whole.lean: the tiles cover the matrix;
  Proof/Operands.lean: what the grid's operands hold). A row-major flattening keeps positions, so the two layouts give
  the same matrix (Proof/Dequant.lean, `affine2_reshape`).

  The table is never opened: the two programs spell it with the same operations in the same order, so the two spellings
  are one function of the codes and the codebooks (`same_table`). Each entry of the result is a product and a sum of
  corresponding entries on both sides; no rearrangement of arithmetic is needed, so the finiteness of the inputs is not
  used. The idealization rewrote nothing in the kernel, so there is nothing to preserve.

  The three frames: the kernel program's two are generated; the reference's is its generated run with the result
  forgotten.
-/
import proofs.«164134_j28406913696351_2_alg».proof.Defs
import proofs.«164134_j28406913696351_2_alg».proof.Proof.Gen.Kernel
import proofs.«164134_j28406913696351_2_alg».proof.Proof.Gen.Kernel.Frame
import proofs.«164134_j28406913696351_2_alg».proof.Proof.Gen.KernelIdeal
import proofs.«164134_j28406913696351_2_alg».proof.Proof.Gen.KernelIdeal.Frame
import proofs.«164134_j28406913696351_2_alg».proof.Proof.Gen.KernelIdeal.Value
import proofs.«164134_j28406913696351_2_alg».proof.Proof.Gen.ReferenceIdeal
import proofs.«164134_j28406913696351_2_alg».proof.Proof.Gen.ReferenceIdeal.Run
import proofs.«164134_j28406913696351_2_alg».proof.Proof.Gen.ReferenceIdeal.Read
import proofs.«164134_j28406913696351_2_alg».proof.Proof.Gen.Pre_finite_inputs
import proofs.«164134_j28406913696351_2_alg».proof.Proof.Whole
import proofs.«164134_j28406913696351_2_alg».proof.Proof.RefForm

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The two programs build the table of summed codebook rows by the same operations in the same order: one function
    of the codes and the codebooks. -/
theorem same_table (x0 : (⟨Cert.KernelIdeal.S8192x1024x2, .i32⟩ : BufTy).Contents (Elt Ideal))
    (x1 : (⟨Cert.KernelIdeal.S2x65536x1x8, .f32⟩ : BufTy).Contents (Elt Ideal)) :
    Cert.ReferenceIdeal.Read.val_main_v17 (F := Ideal) x0 x1 = Cert.KernelIdeal.Operands.table (F := Ideal) x0 x1 := rfl

/-- At the extended reals both programs end with the dequantized matrix of that table: the kernel program tile by
    tile over the flattened operands, the reference on the rank-4 arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq,
    (hagree c).1, (hagree c).2.1, (hagree c).2.2.1, (hagree c).2.2.2, same_table]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
